-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x2048x64 : Shape := ⟨3, ![1, 2048, 64]⟩
abbrev S2048x64 : Shape := ⟨2, ![2048, 64]⟩
abbrev S512x64 : Shape := ⟨2, ![512, 64]⟩
abbrev S64x512 : Shape := ⟨2, ![64, 512]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S2048x64, .bf16⟩
  | .local _ .vmem, ⟨9, _⟩ => ⟨S2048x64, .bf16⟩
  | .local _ .vmem, ⟨10, _⟩ => ⟨S2048x64, .bf16⟩
  | .local _ .vmem, ⟨11, _⟩ => ⟨S2048x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v24 : BitVec 32 := Scalar.addi c0_i32 c4_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  v29
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v29 : BitVec 32 := Scalar.muli arg9 c512_i32
  let v30 : BitVec 32 := v29
  let v31 : Index := Scalar.indexCast v30
  let c0_23 : Index := 0#32
  ![v31.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x2048x64_S64x2048x64 : S4x16x2048x64.ShapeCasts S64x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S512x64 : 0 < S512x64.numel
  transposes_S512x64_p1_0_S64x512 : S512x64.Transposes [1, 0] S64x512
  shapeCasts_S2048x64_S1x2048x64 : S2048x64.ShapeCasts S1x2048x64
  shapeCasts_S64x2048x64_S4x16x2048x64 : S64x2048x64.ShapeCasts S4x16x2048x64
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S64x2048x64.size a
  hwx0_0 : ∀ i : grid0.Coords, EltTy.bits .f32 = 32 ∨ (Rect.block (s := S64x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S64x2048x64.size a
  hwx0_3 : ∀ i : grid0.Coords, EltTy.bits .f32 = 32 ∨ (Rect.block (s := S64x2048x64) S1x2048x64.size (cc0_transform_3 i) (hinb0_3 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Body.lean ====
/-
  What one grid point leaves in its output block, as a pure function of its three input blocks.

  The body first stores into three scratch arrays the scaled query block Q = x₀ · (1/8) and the key and value
  blocks K = x₁, V = x₂ (each with a change of float format), zeroes an accumulator, and then runs four trips:
  trip n reads rows 512·n … 512·n + 511 of K and of V and adds (Q · Kₙᵀ) · Vₙ to the accumulator. The output
  block is the accumulator after the fourth trip. This module states that as a recursion over the trips
  (`accum`) and proves the point's output block equal to it, at any float instance.
-/
import proofs.«152671_j4990751998151_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

theorem zeros3 : (![0, 0, 0] : Fin 3 → Nat) = fun _ => 0 := by funext a; fin_cases a <;> rfl
theorem zeros2 : (![0, 0] : Fin 2 → Nat) = fun _ => 0 := by funext a; fin_cases a <;> rfl

/-- The loop makes four trips. -/
theorem trips_eq : k0_t1_loop.trips = 4 := rfl

/-- Rows 512·n … 512·n + 511 (all 64 columns) of a [2048, 64] array: what trip n reads of K and of V. -/
abbrev chunk (n : Fin k0_t1_loop.trips) : Rect S2048x64 :=
  Rect.unit (s := S2048x64) (k0_off1 n) S512x64.size (k0_off1_inb n)

/-- The accumulator before trip n: zero, then one more chunk's contribution per trip. -/
def accum (Q K V : Vec F S2048x64 .bf16) : ℕ → Vec F S2048x64 .f32
  | 0 => k0_pay5
  | n + 1 =>
    if h : n < k0_t1_loop.trips then
      k0_pay6 (View.ld K (chunk ⟨n, h⟩)) (View.ld V (chunk ⟨n, h⟩)) Q (accum Q K V n)
    else accum Q K V n

theorem accum_succ (Q K V : Vec F S2048x64 .bf16) (n : Fin k0_t1_loop.trips) :
    accum Q K V (n.val + 1) = k0_pay6 (View.ld K (chunk n)) (View.ld V (chunk n)) Q (accum Q K V n.val) := by
  rw [accum]; exact dif_pos n.isLt

/-- A buffer read back after a store of the whole shape (the last store made) reads that store's value. -/
theorem read_whole_store {sig : RefSig} {κ : Kind} {sp : Space} {S : Shape} {e : EltTy}
    (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

section
variable (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x64 .bf16) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .f32) (harg8 : arg8.IsWhole)

/-- What trip n stores: one whole-accumulator store of the accumulator it found plus its chunk's product. -/
theorem trip_piece (X5 : BufTy.Contents (Elt F) arg5.view.ty) (X6 : BufTy.Contents (Elt F) arg6.view.ty)
    (X7 : BufTy.Contents (Elt F) arg7.view.ty) (n : Fin k0_t1_loop.trips) (f : BufTy.Contents (Elt F) arg8.view.ty) :
    tripL_k0_t1 (F := F) Variants.none c none i arg1 harg1 arg2 harg2 arg3 harg3 arg4 harg4 arg5 harg5 arg6 harg6 arg7 harg7 arg8 harg8 X5 X6 X7 n f
      = [⟨Rect.unit ![0, 0] S2048x64.size inb_S2048x64_S2048x64_0_0,
          k0_pay6 (View.ld (arg6.view.read (Elt F) X6) (chunk n)) (View.ld (arg7.view.read (Elt F) X7) (chunk n))
            (arg5.view.read (Elt F) X5) (arg8.view.read (Elt F) f)⟩] := by
  unfold tripL_k0_t1 trip_k0_t1
  dsimp only
  simp only [View.readAt_eq_ld, View.ld_unit_zero (S := S2048x64) zeros2]

/-- The accumulator's contents before trip n, read back, are `accum` of the three scratch arrays' contents. -/
theorem acc_before (X5 : BufTy.Contents (Elt F) arg5.view.ty) (X6 : BufTy.Contents (Elt F) arg6.view.ty)
    (X7 : BufTy.Contents (Elt F) arg7.view.ty) (G8 : BufTy.Contents (Elt F) arg8.view.ty)
    (hG : arg8.view.read (Elt F) G8 = k0_pay5) :
    ∀ n : ℕ, n ≤ k0_t1_loop.trips →
      arg8.view.read (Elt F) (arg8.view.writes (Elt F) G8
          (pb_k0_t1 (F := F) Variants.none c none i arg1 harg1 arg2 harg2 arg3 harg3 arg4 harg4 arg5 harg5 arg6 harg6 arg7 harg7 arg8 harg8 X5 X6 X7 G8 n))
        = accum (arg5.view.read (Elt F) X5) (arg6.view.read (Elt F) X6) (arg7.view.read (Elt F) X7) n
  | 0, _ => by rw [pb_k0_t1, View.writes_nil, hG]; rfl
  | n + 1, hn => by
    have ih := acc_before X5 X6 X7 G8 hG n (Nat.le_of_succ_le hn)
    have e := pb_k0_t1_succ (F := F) Variants.none c none i arg1 harg1 arg2 harg2 arg3 harg3 arg4 harg4 arg5 harg5 arg6 harg6 arg7 harg7 arg8 harg8 X5 X6 X7 G8 ⟨n, hn⟩
    rw [show n + 1 = (⟨n, hn⟩ : Fin k0_t1_loop.trips).val + 1 from rfl, e, View.writes_append, trip_piece,
      read_whole_store _ _ zeros2, accum_succ, ih]

end

/-- THE BODY'S VALUE: the output block a grid point leaves is the accumulator after the four trips, over the
    scaled query block and the key and value blocks. -/
theorem out_eq (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x64 .bf16) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .f32) (harg8 : arg8.IsWhole) (x0 x1 x2 : Vec F S1x2048x64 .f32) :
    out0_A_3 c i arg1 harg1 arg2 harg2 arg3 harg3 arg4 harg4 arg5 harg5 arg6 harg6 arg7 harg7 arg8 harg8 x0 x1 x2
      = k0_pay1 (accum (k0_pay2 x0) (k0_pay3 x1) (k0_pay4 x2) k0_t1_loop.trips) := by
  unfold out0_A_3
  rw [View.read_writes_eq_canon _ _ _ (cover0_A_3 c i arg1 harg1 arg2 harg2 arg3 harg3 arg4 harg4 arg5 harg5 arg6 harg6 arg7 harg7 arg8 harg8 x0 x1 x2)]
  unfold kernelRun0_A
  dsimp only
  rw [View.canon_unit_zero zeros3]
  unfold kernelRun0_A.sl.v
  unfold kernelRun0_A.sl.HS0_1 kernelRun0_A.sl.HS1_1 kernelRun0_A.sl.HS2_1 kernelRun0_A.sl.HS3_1
  rw [View.readAt_eq_ld, View.ld_unit_zero (S := S2048x64) zeros2, View.writes_append,
    acc_before c i arg1 harg1 arg2 harg2 arg3 harg3 arg4 harg4 arg5 harg5 arg6 harg6 arg7 harg7 arg8 harg8 _ _ _ _ (read_whole_store (S := S2048x64) _ _ zeros2 _ _ _) _ (le_refl _)]
  rw [read_whole_store (S := S2048x64) _ _ zeros2, read_whole_store (S := S2048x64) _ _ zeros2,
    read_whole_store (S := S2048x64) _ _ zeros2]
  simp only [View.readAt_eq_ld, View.ld_unit_zero (S := S1x2048x64) zeros3,
    harg1.read_unread, harg2.read_unread, harg3.read_unread]

end Cert.KernelIdeal.Body

end
-- ==== Proof.LibMatmul.lean ====
/-
  A plain matrix product read at an index. For a product of an [m, k] by a [k, n] matrix that contracts the
  left operand's axis 1 with the right operand's axis 0 (no batch axes), the entry at (a, b) is the sum over c of
  A[a, c] · B[c, b] — both for the host's dot_general and for the in-kernel matmul into a zero accumulator, at the
  ideal values (extended reals, exact operations; a change of float format is the identity there).
-/
import Idealize.ShloMosaic.Lib.ValueIdx
import Idealize.ShloMosaic.PureOps.Ideal.Laws

namespace Cert.MatProd

open Idealize.ShloMosaic Idealize.ShloMosaic.ValueIdx

variable {m k n : ℕ}

/-- The operand indices of a plain product at output index (a, b) and contraction coordinate c are (a, c) and (c, b). -/
theorem lhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

theorem rhsIdx_plain (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's dot_general of a plain product, at (a, b): Σ_c A[a, c] · B[c, b]. -/
theorem dotGeneral_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

/-- The in-kernel matmul of a plain product into a zero accumulator, at (a, b): the same sum. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_plain w a b c, rhsIdx_plain w a b c]

end Cert.MatProd
-- ==== Proof.Spec.lean ====
/-
  The arithmetic that joins the two programs, on the extended reals.

  Both programs compute, for every batch b, head h, query row s and column d,
      out[b, h, s, d] = Σ_t ((Σ_e q[b, h, s, e] · k[b, h, t, e]) · (1/8)) · v[b, h, t, d].
  The reference does so literally. The kernel scales q by 1/8 before the first product, cuts the 2048 key and value
  rows into four chunks of 512, and adds the chunks' contributions to an accumulator that starts at zero. Two laws
  make the two arrangements equal on the extended reals: a sum may be cut into consecutive chunks (addition is
  associative and commutative there), and multiplication by a finite non-negative constant distributes over a sum
  (it does so even at the infinities, where multiplication by an arbitrary factor does not).
-/
import Idealize.ShloMosaic.PureOps.Ideal
import Idealize.ShloMosaic.Lib.ValueIdx

noncomputable section

namespace Cert.Spec

open Idealize.ShloMosaic
open scoped BigOperators

/-- The scale both programs use: the float 1/8. -/
abbrev scale : EReal := Ideal.ofBits .f32 0x3E000000#32

theorem scale_eq : scale = ((0.125 : ℝ) : EReal) := by
  simp [scale, Ideal.ofBits, Ideal.ieee, -EReal.coe_mul]; norm_num

theorem scale_nonneg : 0 ≤ scale := by rw [scale_eq]; exact_mod_cast (by norm_num : (0 : ℝ) ≤ 0.125)
theorem scale_ne_top : scale ≠ ⊤ := by rw [scale_eq]; exact EReal.coe_ne_top _

/-- The float zero is the real zero. -/
theorem zero_eq : Ideal.ofBits .f32 0x00000000#32 = 0 := by simp [Ideal.ofBits, Ideal.ieee]

/-- Multiplication by a finite non-negative constant distributes over a finite sum of extended reals. -/
theorem sum_mul_const {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Scaling the left factors of a sum of products is scaling the sum. -/
theorem scaled_dot {ι : Type*} [Fintype ι] (a k : ι → EReal) (c : EReal) (h0 : 0 ≤ c) (ht : c ≠ ⊤) :
    ∑ e, (a e * c) * k e = (∑ e, a e * k e) * c := by
  rw [sum_mul_const _ _ c h0 ht]
  exact Finset.sum_congr rfl fun e _ => mul_right_comm _ _ _

/-- A sum over 2048 terms is the sum of its four consecutive chunks of 512, added to zero one after the other. -/
theorem sum_chunks (f : Fin 2048 → EReal) (g : Fin 4 → Fin 512 → EReal)
    (hg : ∀ (n : Fin 4) (t : Fin 512), g n t = f ⟨512 * n.val + t.val, by omega⟩) :
    (((0 + ∑ t, g 0 t) + ∑ t, g 1 t) + ∑ t, g 2 t) + ∑ t, g 3 t = ∑ t, f t := by
  have e : ∑ t, f t = ∑ p : Fin 4 × Fin 512, f ⟨512 * p.1.val + p.2.val, by omega⟩ := by
    refine (Fintype.sum_equiv (finProdFinEquiv (m := 4) (n := 512)) _ _ fun p => ?_).symm
    exact congrArg f (Fin.ext (by rw [finProdFinEquiv_apply_val]; show 512 * p.1.val + p.2.val = p.2.val + 512 * p.1.val; omega))
  rw [e, Fintype.sum_prod_type, Fin.sum_univ_four, zero_add]
  simp only [hg]

/-- One output entry: the kernel's arrangement (scaled query, four chunks into a zero accumulator) is the reference's
    (one sum over the 2048 rows, each term scaled after its inner product). -/
theorem entry_eq (a : Fin 64 → EReal) (k : Fin 2048 → Fin 64 → EReal) (v : Fin 2048 → EReal) (P : Fin 4 → EReal)
    (hP : ∀ n : Fin 4, P n = ∑ t : Fin 512,
      (∑ e, (a e * scale) * k ⟨512 * n.val + t.val, by omega⟩ e) * v ⟨512 * n.val + t.val, by omega⟩) :
    (((0 + P 0) + P 1) + P 2) + P 3 = ∑ t, ((∑ e, a e * k t e) * scale) * v t := by
  have h := sum_chunks (fun t => ((∑ e, a e * k t e) * scale) * v t) (fun n t => (∑ e, (a e * scale) * k ⟨512 * n.val + t.val, by omega⟩ e) * v ⟨512 * n.val + t.val, by omega⟩)
    (fun n t => by rw [scaled_dot _ _ _ scale_nonneg scale_ne_top])
  simp only [hP]
  exact h

end Cert.Spec

end
-- ==== Proof.BodyIdeal.lean ====
/-
  The output block of one grid point, entry by entry, on the extended reals.

  With exact arithmetic a change of float format is the identity, a matrix product into a zero accumulator is the
  textbook sum of products, and the float zero is the real zero. So the accumulator gains, at trip n and entry (s, d),
      Σ_t (Σ_e Q[s, e] · K[512 n + t, e]) · V[512 n + t, d],
  and after the four trips the block's entry (0, s, d) is zero plus the four chunk sums, with Q = x₀ · (1/8).
-/
import proofs.«152671_j4990751998151_2_alg».proof.Proof.Body
import proofs.«152671_j4990751998151_2_alg».proof.Proof.LibMatmul
import proofs.«152671_j4990751998151_2_alg».proof.Proof.Spec
import Idealize.ShloMosaic.Lib.ValueLayout
import Idealize.ShloMosaic.Lib.ValueIdx
import Idealize.ShloMosaic.PureOps.Ideal.Laws

noncomputable section

namespace Cert.KernelIdeal.BodyIdeal

open Cert.KernelIdeal Cert.KernelIdeal.Gen Cert.KernelIdeal.Body
open Idealize.ShloMosaic Idealize.ShloMosaic.ValueIdx
open scoped BigOperators

/-- The scaled query block: entry (s, e) is x₀[0, s, e] · (1/8). -/
theorem pay2_apply (x0 : Vec Ideal S1x2048x64 .f32) (s : Fin 2048) (e : Fin 64) :
    k0_pay2 x0 (ix2 s e) = x0 (ix3 (0 : Fin 1) s e) * Cert.Spec.scale := by
  unfold k0_pay2
  rw [shapeCast_self]
  show shapeCast S2048x64 x0 shapeCasts_S1x2048x64_S2048x64 (ix2 s e) * _ = _
  rw [shapeCast_1ab_ab_apply]
  rfl

/-- The key block: entry (t, e) is x₁[0, t, e]. -/
theorem pay3_apply (x1 : Vec Ideal S1x2048x64 .f32) (t : Fin 2048) (e : Fin 64) :
    k0_pay3 x1 (ix2 t e) = x1 (ix3 (0 : Fin 1) t e) := by
  unfold k0_pay3
  rw [shapeCast_self]
  show shapeCast S2048x64 x1 shapeCasts_S1x2048x64_S2048x64 (ix2 t e) = _
  rw [shapeCast_1ab_ab_apply]

/-- The value block: entry (t, d) is x₂[0, t, d]. -/
theorem pay4_apply (x2 : Vec Ideal S1x2048x64 .f32) (t : Fin 2048) (d : Fin 64) :
    k0_pay4 x2 (ix2 t d) = x2 (ix3 (0 : Fin 1) t d) := by
  unfold k0_pay4
  rw [shapeCast_self]
  show shapeCast S2048x64 x2 shapeCasts_S1x2048x64_S2048x64 (ix2 t d) = _
  rw [shapeCast_1ab_ab_apply]

/-- The accumulator starts at zero. -/
theorem pay5_apply (s : Fin 2048) (d : Fin 64) : k0_pay5 (F := Ideal) (ix2 s d) = 0 := by
  unfold k0_pay5
  rw [shapeCast_self]
  exact Cert.Spec.zero_eq

/-- The output block is the accumulator with a leading unit axis. -/
theorem pay1_apply (acc : Vec Ideal S2048x64 .f32) (u : Fin 1) (s : Fin 2048) (d : Fin 64) :
    k0_pay1 acc (ix3 u s d) = acc (ix2 s d) := by
  unfold k0_pay1
  exact shapeCast_ab_1ab_apply acc _ u s d

/-- One trip: the accumulator plus (Q · Kₙᵀ) · Vₙ, at entry (s, d). -/
theorem pay6_apply (kn vn : Vec Ideal S512x64 .bf16) (q : Vec Ideal S2048x64 .bf16) (acc : Vec Ideal S2048x64 .f32)
    (s : Fin 2048) (d : Fin 64) :
    k0_pay6 kn vn q acc (ix2 s d)
      = acc (ix2 s d) + ∑ t : Fin 512, (∑ e : Fin 64, q (ix2 s e) * kn (ix2 t e)) * vn (ix2 t d) := by
  unfold k0_pay6
  rw [shapeCast_self]
  refine congrArg (acc (ix2 s d) + ·) ?_
  refine (Cert.MatProd.matmul_zero_apply (m := 2048) (k := 512) (n := 64) (φ₁ := .bf16) (φ₂ := .bf16)
    dot_S2048x512_S512x64_S2048x64_1_0_0_1_n_n_wf none _ vn s d).trans ?_
  refine Finset.sum_congr rfl fun t _ => ?_
  refine congrArg (· * vn (ix2 t d)) ?_
  refine (Cert.MatProd.matmul_zero_apply (m := 2048) (k := 64) (n := 512) (φ₁ := .bf16) (φ₂ := .bf16)
    dot_S2048x64_S64x512_S2048x512_1_0_0_1_n_n_wf none q _ s t).trans ?_
  refine Finset.sum_congr rfl fun e _ => ?_
  refine congrArg (q (ix2 s e) * ·) ?_
  exact transpose_ix2_apply kn _ e t

/-- Row t of chunk n is a row of the array. -/
theorem row_lt (n : Fin k0_t1_loop.trips) (t : Fin 512) : 512 * n.val + t.val < 2048 := by
  have h : n.val < 4 := n.isLt
  omega

/-- Row t of chunk n is row 512 n + t of the array. -/
theorem chunk_idx (n : Fin k0_t1_loop.trips) (t : Fin 512) (e : Fin 64) :
    (chunk n).idx (ix2 t e) = ix2 (⟨512 * n.val + t.val, row_lt n t⟩ : Fin 2048) e := by
  funext a; apply Fin.ext
  match a with
  | ⟨0, _⟩ =>
    show (k0_off1 n) 0 + 1 * t.val = 512 * n.val + t.val
    rw [k0_off1_eq]; show 512 * n.val + 1 * t.val = _; omega
  | ⟨1, _⟩ =>
    show (k0_off1 n) 1 + 1 * e.val = e.val
    rw [k0_off1_eq]; show 0 + 1 * e.val = _; omega

/-- One step of the accumulation at entry (s, d). -/
theorem accum_step (Q K V : Vec Ideal S2048x64 .bf16) (n : Fin k0_t1_loop.trips) (s : Fin 2048) (d : Fin 64) :
    accum Q K V (n.val + 1) (ix2 s d)
      = accum Q K V n.val (ix2 s d)
        + ∑ t : Fin 512, (∑ e : Fin 64, Q (ix2 s e)
              * K (ix2 (⟨512 * n.val + t.val, row_lt n t⟩ : Fin 2048) e))
            * V (ix2 (⟨512 * n.val + t.val, row_lt n t⟩ : Fin 2048) d) := by
  rw [accum_succ, pay6_apply]
  refine congrArg (accum Q K V n.val (ix2 s d) + ·) ?_
  refine Finset.sum_congr rfl fun t _ => ?_
  show (∑ e : Fin 64, Q (ix2 s e) * K ((chunk n).idx (ix2 t e))) * V ((chunk n).idx (ix2 t d)) = _
  simp only [chunk_idx]

/-- THE BLOCK, ENTRY BY ENTRY: what a grid point leaves at (0, s, d) of its output block is the reference's
    entry over the point's three input blocks. -/
theorem block_apply (c : Dev nD) (i : grid0.Coords) (arg1 : Memref sig .tc .vmem S1x2048x64 .f32) (harg1 : arg1.IsWhole) (arg2 : Memref sig .tc .vmem S1x2048x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x64 .bf16) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .f32) (harg8 : arg8.IsWhole)
    (x0 x1 x2 : Vec Ideal S1x2048x64 .f32) (u : Fin 1) (s : Fin 2048) (d : Fin 64) :
    out0_A_3 c i arg1 harg1 arg2 harg2 arg3 harg3 arg4 harg4 arg5 harg5 arg6 harg6 arg7 harg7 arg8 harg8 x0 x1 x2 (ix3 u s d)
      = ∑ t : Fin 2048, ((∑ e : Fin 64, x0 (ix3 (0 : Fin 1) s e) * x1 (ix3 (0 : Fin 1) t e)) * Cert.Spec.scale)
          * x2 (ix3 (0 : Fin 1) t d) := by
  rw [out_eq, pay1_apply]
  refine Eq.trans ?_ (Cert.Spec.entry_eq (fun e => x0 (ix3 (0 : Fin 1) s e)) (fun t e => x1 (ix3 (0 : Fin 1) t e))
    (fun t => x2 (ix3 (0 : Fin 1) t d))
    (fun n => ∑ t : Fin 512, (∑ e : Fin 64, (x0 (ix3 (0 : Fin 1) s e) * Cert.Spec.scale)
        * x1 (ix3 (0 : Fin 1) (⟨512 * n.val + t.val, by omega⟩ : Fin 2048) e))
      * x2 (ix3 (0 : Fin 1) (⟨512 * n.val + t.val, by omega⟩ : Fin 2048) d)) (fun n => rfl))
  have h3 := accum_step (k0_pay2 x0) (k0_pay3 x1) (k0_pay4 x2) ⟨3, by rw [trips_eq]; omega⟩ s d
  have h2 := accum_step (k0_pay2 x0) (k0_pay3 x1) (k0_pay4 x2) ⟨2, by rw [trips_eq]; omega⟩ s d
  have h1 := accum_step (k0_pay2 x0) (k0_pay3 x1) (k0_pay4 x2) ⟨1, by rw [trips_eq]; omega⟩ s d
  have h0 := accum_step (k0_pay2 x0) (k0_pay3 x1) (k0_pay4 x2) ⟨0, by rw [trips_eq]; omega⟩ s d
  have hz : accum (k0_pay2 x0) (k0_pay3 x1) (k0_pay4 x2) 0 (ix2 s d) = 0 := pay5_apply s d
  simp only [pay2_apply, pay3_apply, pay4_apply] at h3 h2 h1 h0
  show accum (k0_pay2 x0) (k0_pay3 x1) (k0_pay4 x2) (3 + 1) (ix2 s d) = _
  rw [h3, h2, h1, h0, hz]
  rfl

end Cert.KernelIdeal.BodyIdeal

end
-- ==== Proof.Blocks.lean ====
/-
  From blocks to the array. The grid has 64 points, one per (batch, head) pair; point t reads block t — the whole
  [1, 2048, 64] slab at leading index t — of each of the three input arrays and writes block t of the output array.
  So the output array, after all points, holds at (g, s, d) the attention entry computed from slab g of the inputs:
      Σ_t ((Σ_e A₀[g, s, e] · A₁[g, t, e]) · (1/8)) · A₂[g, t, d].
-/
import proofs.«152671_j4990751998151_2_alg».proof.Proof.BodyIdeal
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open scoped BigOperators

/-- One entry of the output over [64, 2048, 64] arrays (batch and head flattened into the leading axis). -/
def entry3 (A0 A1 A2 : S64x2048x64.Idx → EReal) (g : Fin 64) (s : Fin 2048) (d : Fin 64) : EReal :=
  ∑ t : Fin 2048, ((∑ e : Fin 64, A0 (ix3 g s e) * A1 (ix3 g t e)) * Cert.Spec.scale) * A2 (ix3 g t d)

/-- The output array as one function of the three input arrays. -/
def attn3 (A0 A1 A2 : S64x2048x64.Idx → EReal) : S64x2048x64.Idx → EReal :=
  fun j => entry3 A0 A1 A2 (j 0) (j 1) (j 2)

variable (m : (ℓ : Loc nD τ sig) → Buf (Elt Ideal) ℓ)

/-- The printed index maps over the grid: every window's block at point t is slab t. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Point t as a leading index of the arrays. -/
abbrev slab (t : Fin cfg0.N) : Fin 64 := ⟨t.val, Nat.lt_of_lt_of_le t.isLt (le_of_eq N_0)⟩

/-- Entry (u, s, e) of a window's block at point t is entry (t, s, e) of its array. -/
theorem emb0 (t : Fin cfg0.N) (u : Fin 1) (s : Fin 2048) (e : Fin 64) :
    ((cfg0.win 0).blk t).view.emb (ix3 u s e) = ix3 (slab t) s e := by
  obtain ⟨e0, e1, e2, -⟩ := idx_facts t
  funext a; apply Fin.ext
  match a with
  | ⟨0, _⟩ => show win0_0.index t (0 : Fin 3) * 1 + 1 * u.val = t.val; omega
  | ⟨1, _⟩ => show win0_0.index t (1 : Fin 3) * 2048 + 1 * s.val = s.val; omega
  | ⟨2, _⟩ => show win0_0.index t (2 : Fin 3) * 64 + 1 * e.val = e.val; omega
theorem emb1 (t : Fin cfg0.N) (u : Fin 1) (s : Fin 2048) (e : Fin 64) :
    ((cfg0.win 1).blk t).view.emb (ix3 u s e) = ix3 (slab t) s e := by
  obtain ⟨-, -, -, e0, e1, e2, -⟩ := idx_facts t
  funext a; apply Fin.ext
  match a with
  | ⟨0, _⟩ => show win0_1.index t (0 : Fin 3) * 1 + 1 * u.val = t.val; omega
  | ⟨1, _⟩ => show win0_1.index t (1 : Fin 3) * 2048 + 1 * s.val = s.val; omega
  | ⟨2, _⟩ => show win0_1.index t (2 : Fin 3) * 64 + 1 * e.val = e.val; omega
theorem emb2 (t : Fin cfg0.N) (u : Fin 1) (s : Fin 2048) (e : Fin 64) :
    ((cfg0.win 2).blk t).view.emb (ix3 u s e) = ix3 (slab t) s e := by
  obtain ⟨-, -, -, -, -, -, e0, e1, e2, -⟩ := idx_facts t
  funext a; apply Fin.ext
  match a with
  | ⟨0, _⟩ => show win0_2.index t (0 : Fin 3) * 1 + 1 * u.val = t.val; omega
  | ⟨1, _⟩ => show win0_2.index t (1 : Fin 3) * 2048 + 1 * s.val = s.val; omega
  | ⟨2, _⟩ => show win0_2.index t (2 : Fin 3) * 64 + 1 * e.val = e.val; omega
theorem emb3 (t : Fin cfg0.N) (u : Fin 1) (s : Fin 2048) (e : Fin 64) :
    ((cfg0.win 3).blk t).view.emb (ix3 u s e) = ix3 (slab t) s e := by
  obtain ⟨-, -, -, -, -, -, -, -, -, e0, e1, e2⟩ := idx_facts t
  funext a; apply Fin.ext
  match a with
  | ⟨0, _⟩ => show win0_3.index t (0 : Fin 3) * 1 + 1 * u.val = t.val; omega
  | ⟨1, _⟩ => show win0_3.index t (1 : Fin 3) * 2048 + 1 * s.val = s.val; omega
  | ⟨2, _⟩ => show win0_3.index t (2 : Fin 3) * 64 + 1 * e.val = e.val; omega

/-- The three input blocks at point t, entry by entry. -/
theorem iblk0_apply (c : Dev nD) (t : Fin cfg0.N) (u : Fin 1) (s : Fin 2048) (e : Fin 64) :
    iblk m c 0 t (ix3 u s e) = V m c main_v0 (ix3 (slab t) s e) := by
  show V m c main_v0 (((cfg0.win 0).blk t).view.emb (ix3 u s e)) = _
  rw [emb0]
theorem iblk1_apply (c : Dev nD) (t : Fin cfg0.N) (u : Fin 1) (s : Fin 2048) (e : Fin 64) :
    iblk m c 1 t (ix3 u s e) = V m c main_v1 (ix3 (slab t) s e) := by
  show V m c main_v1 (((cfg0.win 1).blk t).view.emb (ix3 u s e)) = _
  rw [emb1]
theorem iblk2_apply (c : Dev nD) (t : Fin cfg0.N) (u : Fin 1) (s : Fin 2048) (e : Fin 64) :
    iblk m c 2 t (ix3 u s e) = V m c main_v2 (ix3 (slab t) s e) := by
  show V m c main_v2 (((cfg0.win 2).blk t).view.emb (ix3 u s e)) = _
  rw [emb2]

/-- WHAT POINT t WRITES BACK is block t of `attn3` of the input arrays as the region finds them. -/
theorem flushed_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3]
  unfold outsAt0
  funext (y : S1x2048x64.Idx)
  obtain ⟨u, s, d, rfl⟩ : ∃ (u : Fin 1) (s : Fin 2048) (d : Fin 64), y = ix3 u s d := ⟨y 0, y 1, y 2, eq_ix3 y⟩
  refine (Cert.KernelIdeal.BodyIdeal.block_apply c (grid0.coords t) (ms0_0 t) (hs0_0 t) (ms0_1 t) (hs0_1 t) (ms0_2 t) (hs0_2 t)
    (ms0_3 t) (hs0_3 t) scM0_0 (Memref.isWhole_whole _) scM0_1 (Memref.isWhole_whole _) scM0_2 (Memref.isWhole_whole _)
    scM0_3 (Memref.isWhole_whole _) (iblk m c 0 t) (iblk m c 1 t) (iblk m c 2 t) u s d).trans ?_
  show _ = attn3 (V m c main_v0) (V m c main_v1) (V m c main_v2) (((cfg0.win 3).blk t).view.emb (ix3 u s d))
  rw [emb3]
  simp only [iblk0_apply, iblk1_apply, iblk2_apply]
  rfl

/-- An index of the output array is in point t's block iff each coordinate is in the block's range on its axis. -/
theorem mem_blk (t : Fin cfg0.N) (i : S64x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v3).slice (win0_3.rect t)).set ↔ _
  rw [View.set_slice_whole, Rect.mem_set_unit]
  exact Iff.rfl

/-- Every index of the output array is in the block of the point its leading coordinate names. -/
theorem cover (i : S64x2048x64.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  refine ⟨⟨(i 0).val, by rw [show cfg0.N = 64 from N_0]; exact h0⟩, flush0_3 _, ?_⟩
  rw [mem_blk]
  obtain ⟨-, -, -, -, -, -, -, -, -, e0, e1, e2⟩ := idx_facts ⟨(i 0).val, by rw [show cfg0.N = 64 from N_0]; exact h0⟩
  intro a
  match a with
  | ⟨0, _⟩ =>
    show win0_3.index _ (0 : Fin 3) * 1 ≤ (i 0).val ∧ (i 0).val < win0_3.index _ (0 : Fin 3) * 1 + 1
    rw [e0]; show (i 0).val * 1 ≤ (i 0).val ∧ (i 0).val < (i 0).val * 1 + 1; omega
  | ⟨1, _⟩ =>
    show win0_3.index _ (1 : Fin 3) * 2048 ≤ (i 1).val ∧ (i 1).val < win0_3.index _ (1 : Fin 3) * 2048 + 2048
    rw [e1]; omega
  | ⟨2, _⟩ =>
    show win0_3.index _ (2 : Fin 3) * 64 ≤ (i 2).val ∧ (i 2).val < win0_3.index _ (2 : Fin 3) * 64 + 64
    rw [e2]; omega

/-- THE OUTPUT ARRAY after the region: `attn3` of the three input arrays as the region finds them. -/
theorem final (c : Dev nD) :
    (dats m 0 c).arrAt 3 cfg0.N = attn3 (V m c main_v0) (V m c main_v1) (V m c main_v2) :=
  (dats m 0 c).arrAt_eq_of_cover 3 _ (fun t _ => flushed_eq m c t) cover

end Cert.KernelIdeal.Blocks

end
-- ==== Proof.Attn.lean ====
/-
  The result both programs compute, as one function of the three [4, 16, 2048, 64] argument arrays:
      out[b, h, s, d] = Σ_t ((Σ_e q[b, h, s, e] · k[b, h, t, e]) · (1/8)) · v[b, h, t, d].
-/
import proofs.«152671_j4990751998151_2_alg».proof.Proof.Spec

noncomputable section

namespace Cert.Spec

open Idealize.ShloMosaic Idealize.ShloMosaic.ValueIdx
open scoped BigOperators

/-- The shape of the arguments and of the result. -/
abbrev SArg : Shape := ⟨4, ![4, 16, 2048, 64]⟩

/-- One entry of the result. -/
def entry (q k v : SArg.Idx → EReal) (b : Fin 4) (h : Fin 16) (s : Fin 2048) (d : Fin 64) : EReal :=
  ∑ t : Fin 2048, ((∑ e : Fin 64, q (ix4 b h s e) * k (ix4 b h t e)) * scale) * v (ix4 b h t d)

/-- The result array. -/
def attn (q k v : SArg.Idx → EReal) : SArg.Idx → EReal := fun i => entry q k v (i 0) (i 1) (i 2) (i 3)

end Cert.Spec

end
-- ==== Proof.Host.lean ====
/-
  The host operations around the kernel call. Before the call each argument array [4, 16, 2048, 64] is reshaped to
  [64, 2048, 64] (batch b and head h become the leading index 16 b + h); after it the kernel's output is reshaped back.
  A reshape keeps the row-major order, so entry (b, h, s, d) of the result is entry (16 b + h, s, d) of the kernel's
  output array, which is the attention entry over slab 16 b + h of the flattened arguments, i.e. over batch b and
  head h of the arguments themselves.
-/
import proofs.«152671_j4990751998151_2_alg».proof.Proof.Blocks
import proofs.«152671_j4990751998151_2_alg».proof.Proof.Attn
import Idealize.ShloMosaic.Lib.StableHlo.Run
import Idealize.ShloMosaic.Lib.Pipeline.FrameSuffix

set_option maxRecDepth 16384

noncomputable section

namespace Cert.KernelIdeal.HostSide

open Cert.KernelIdeal Cert.KernelIdeal.Gen Cert.KernelIdeal.Blocks
open Idealize.ShloMosaic Idealize.ShloMosaic.TcCoe Idealize.ShloMosaic.ValueIdx Idealize.ShloMosaic.StableHlo
open Idealize.SL Idealize.SL.Sem
open scoped BigOperators

/-- Flattening batch and head: entry (16 b + h, s, e) of the reshaped array is entry (b, h, s, e) of the array. -/
theorem flat_apply (x : S4x16x2048x64.Idx → EReal) (b : Fin 4) (h : Fin 16) (s : Fin 2048) (e : Fin 64) :
    shapeCast S64x2048x64 x shapeCasts_S4x16x2048x64_S64x2048x64 (ix3 (⟨16 * b.val + h.val, by omega⟩ : Fin 64) s e)
      = x (ix4 b h s e) :=
  shapeCast_apply x _ _ _ (by
    rw [Shape.rowMajor_val_four, Shape.rowMajor_val_three]
    show ((b.val * 16 + h.val) * 2048 + s.val) * 64 + e.val = ((16 * b.val + h.val) * 2048 + s.val) * 64 + e.val
    omega)

/-- And back: entry (b, h, s, d) of the array reshaped to four axes is entry (16 b + h, s, d) of the array. -/
theorem unflat_apply (x : S64x2048x64.Idx → EReal) (b : Fin 4) (h : Fin 16) (s : Fin 2048) (d : Fin 64) :
    shapeCast S4x16x2048x64 x shapeCasts_S64x2048x64_S4x16x2048x64 (ix4 b h s d)
      = x (ix3 (⟨16 * b.val + h.val, by omega⟩ : Fin 64) s d) :=
  shapeCast_apply x _ _ _ (by
    rw [Shape.rowMajor_val_four, Shape.rowMajor_val_three]
    show ((16 * b.val + h.val) * 2048 + s.val) * 64 + d.val = ((b.val * 16 + h.val) * 2048 + s.val) * 64 + d.val
    omega)

/-- The reshapes around the flattened attention cancel: the result is the attention of the arguments. -/
theorem result_eq (q k v : S4x16x2048x64.Idx → EReal) :
    shapeCast S4x16x2048x64
        (attn3 (shapeCast S64x2048x64 q shapeCasts_S4x16x2048x64_S64x2048x64)
          (shapeCast S64x2048x64 k shapeCasts_S4x16x2048x64_S64x2048x64)
          (shapeCast S64x2048x64 v shapeCasts_S4x16x2048x64_S64x2048x64))
        shapeCasts_S64x2048x64_S4x16x2048x64
      = Cert.Spec.attn q k v := by
  funext i
  obtain ⟨b, h, s, d, rfl⟩ : ∃ (b : Fin 4) (h : Fin 16) (s : Fin 2048) (d : Fin 64), i = ix4 b h s d :=
    ⟨i 0, i 1, i 2, i 3, eq_ix4 i⟩
  rw [unflat_apply]
  show entry3 _ _ _ (⟨16 * b.val + h.val, by omega⟩ : Fin 64) s d = Cert.Spec.entry q k v b h s d
  unfold entry3 Cert.Spec.entry
  simp only [flat_apply]

variable (m : (ℓ : Loc nD τ sig) → Buf (Elt Ideal) ℓ) (ρ : Dev nD → PrngReg)

/-- The region finds each flattened array as the reshape of its argument. -/
theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl
theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl
theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-- After the region the result buffer holds the attention of the three arguments. -/
theorem tail_v4 (c : Dev nD) :
    Pipeline.afterTail₀ cfgs (dats m) 0 (V0 m) [hostOps1] c main_v4
      = Cert.Spec.attn (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = attn3 (V m c main_v0) (V m c main_v1) (V m c main_v2) :=
    (Pipeline.withArrays_arr spec0 launch0.win.arr_inj c _ _ 3).trans (final m c)
  show shapeCast S4x16x2048x64 (Pipeline.withArrays (cfgs 0).spec c (V0 m c) (fun w => (dats m 0 c).arrAt w (cfgs 0).N)
    (Proc.devRef .tc main_v3)) shapeCasts_S64x2048x64_S4x16x2048x64 = _
  rw [e, V_v0, V_v1, V_v2]
  exact result_eq _ _ _

/-- THE KERNEL'S RUN, READ: every weakly fair execution ends with the result buffer at the attention of the three
    arguments, and the arguments unchanged. -/
theorem run : θ_run defs (onTc (τ := τ) (main (F := Ideal))) ⟨m, fun _ => 0, ρ⟩ (fun r => ∀ c : Dev nD,
      r.2.mem ((c.tc : Thread nD τ).loc main_v4)
        = Cert.Spec.attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v4 (Pipeline.mem_restRefs_of main_v4 (by decide) (by decide))).trans (tail_v4 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.HostSide

end
-- ==== Proof.Ref.lean ====
/-
  The reference computes the attention literally: a batched product of q and k over the feature axis, every entry
  multiplied by 1/8, then a batched product with v over the key axis. Read entry by entry, that is
      Σ_t ((Σ_e q[b, h, s, e] · k[b, h, t, e]) · (1/8)) · v[b, h, t, d].
-/
import proofs.«152671_j4990751998151_2_alg».proof.Proof.Gen.ReferenceIdeal.Read
import proofs.«152671_j4990751998151_2_alg».proof.Proof.Attn

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The operand indices of the two products, by coordinates. -/
theorem lidx0_eq (i : S4x16x2048x64.Idx) (t : Fin 2048) (e : Fin 64) :
    lidx_main_v0 (lidx_main_v3 i t) e = ix4 (i 0) (i 1) (i 2) e :=
  funext fun a => Fin.ext (by match a with | ⟨0, _⟩ => rfl | ⟨1, _⟩ => rfl | ⟨2, _⟩ => rfl | ⟨3, _⟩ => rfl)
theorem ridx0_eq (i : S4x16x2048x64.Idx) (t : Fin 2048) (e : Fin 64) :
    ridx_main_v0 (lidx_main_v3 i t) e = ix4 (i 0) (i 1) t e :=
  funext fun a => Fin.ext (by match a with | ⟨0, _⟩ => rfl | ⟨1, _⟩ => rfl | ⟨2, _⟩ => rfl | ⟨3, _⟩ => rfl)
theorem ridx3_eq (i : S4x16x2048x64.Idx) (t : Fin 2048) :
    ridx_main_v3 i t = ix4 (i 0) (i 1) t (i 3) :=
  funext fun a => Fin.ext (by match a with | ⟨0, _⟩ => rfl | ⟨1, _⟩ => rfl | ⟨2, _⟩ => rfl | ⟨3, _⟩ => rfl)

/-- The reference's result is the attention of its arguments. -/
theorem ref_eq (x0 x1 x2 : S4x16x2048x64.Idx → EReal) :
    val_main_v3 (F := Ideal) x0 x1 x2 = Cert.Spec.attn x0 x1 x2 := by
  funext i
  rw [val_main_v3_apply]
  show _ = Cert.Spec.entry x0 x1 x2 (i 0) (i 1) (i 2) (i 3)
  unfold Cert.Spec.entry
  refine Finset.sum_congr rfl fun t _ => ?_
  rw [val_main_v2_apply, val_main_v0_apply, val_main_v1_apply, val_main_cst_apply, ridx3_eq]
  simp only [lidx0_eq, ridx0_eq]
  rfl

end Cert.ReferenceIdeal.RefValue

end
-- ==== Proof.lean ====
/-
  The certificate's five claims for the attention kernel with no softmax:
      out[b, h, s, d] = Σ_t ((Σ_e q[b, h, s, e] · k[b, h, t, e]) · (1/8)) · v[b, h, t, d].

  The three frames: both printed forms of the kernel run to the end, fault-free, leaving the arguments as they were
  (the generated frame modules); the reference, a straight line of host operations, does so too (its generated run).
  The idealization rewrote nothing, so there is nothing to preserve. The value claim: on the extended reals the
  kernel's result array and the reference's are the same function of the arguments. The kernel scales q before the
  first product, walks the 2048 key/value rows in four chunks of 512 and accumulates from zero, on arrays with batch
  and head flattened into one axis; the reference multiplies after the first product and sums over all 2048 rows at
  once. Re-association of the sum and distributivity of multiplication by the finite non-negative constant 1/8 over
  sums of extended reals (Spec), together with the row-major reading of the reshapes (Host), make them equal; no
  finiteness of the inputs is needed.
-/
import proofs.«152671_j4990751998151_2_alg».proof.Defs
import proofs.«152671_j4990751998151_2_alg».proof.Proof.Gen.Kernel
import proofs.«152671_j4990751998151_2_alg».proof.Proof.Gen.Kernel.Skeleton
import proofs.«152671_j4990751998151_2_alg».proof.Proof.Gen.Kernel.Loops
import proofs.«152671_j4990751998151_2_alg».proof.Proof.Gen.Kernel.Launch
import proofs.«152671_j4990751998151_2_alg».proof.Proof.Gen.Kernel.Points
import proofs.«152671_j4990751998151_2_alg».proof.Proof.Gen.Kernel.Frame
import proofs.«152671_j4990751998151_2_alg».proof.Proof.Gen.KernelIdeal
import proofs.«152671_j4990751998151_2_alg».proof.Proof.Gen.KernelIdeal.Skeleton
import proofs.«152671_j4990751998151_2_alg».proof.Proof.Gen.KernelIdeal.Loops
import proofs.«152671_j4990751998151_2_alg».proof.Proof.Gen.KernelIdeal.Launch
import proofs.«152671_j4990751998151_2_alg».proof.Proof.Gen.KernelIdeal.Points
import proofs.«152671_j4990751998151_2_alg».proof.Proof.Gen.KernelIdeal.Frame
import proofs.«152671_j4990751998151_2_alg».proof.Proof.Gen.ReferenceIdeal
import proofs.«152671_j4990751998151_2_alg».proof.Proof.Gen.Pre_finite_inputs
import proofs.«152671_j4990751998151_2_alg».proof.Proof.Gen.ReferenceIdeal.Run
import proofs.«152671_j4990751998151_2_alg».proof.Proof.Gen.ReferenceIdeal.Read
import proofs.«152671_j4990751998151_2_alg».proof.Proof.Host
import proofs.«152671_j4990751998151_2_alg».proof.Proof.Ref
import Idealize.ShloMosaic.Adequacy
import Idealize.ShloMosaic.Init

noncomputable section

namespace Cert.Proof

open Idealize.ShloMosaic Idealize.SL.Sem

/-- Both idealized programs, from memories that agree on the arguments, end with the attention of the arguments in
    their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
